-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S1x10000x10000 : Shape := ⟨3, ![1, 10000, 10000]⟩
abbrev S1x128x128 : Shape := ⟨3, ![1, 128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S1x128x128 : S_.BroadcastsInDim S1x128x128 (![] : Fin 0 → Fin S1x128x128.rank)
  reducesTo_S1x128x128_S_d0_1_2 : S1x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S1x10000x10000 .f32) (main_arg2 : FVec F S1x128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S1x128x128 .f32 := Host.absf main_arg2
  let main_cst_2 : FVec F S_ .f32 := constant S_ .f32 0x7F800000#32
  let main_v10 : FVec F S1x128x128 .f32 := broadcastInDim S1x128x128 ![] bcast_S_S1x128x128 main_cst_2
  let main_v11 : IVec S1x128x128 1 := cmpf .olt main_v9 main_v10
  let main_c_3 : IVec S_ 1 := constantI S_ 1 1#1
  let main_v12 : IVec S_ 1 := (fun x v => Host.reduce IntOp.andi x v reducesTo_S1x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S1x10000x10000 : Shape := ⟨3, ![1, 10000, 10000]⟩
abbrev S1x128x128 : Shape := ⟨3, ![1, 128, 128]⟩
abbrev S128 : Shape := ⟨1, ![128]⟩
abbrev S1x128 : Shape := ⟨2, ![1, 128]⟩
abbrev S1x400x10000 : Shape := ⟨3, ![1, 400, 10000]⟩
abbrev S400x128 : Shape := ⟨2, ![400, 128]⟩
abbrev S400x10000 : Shape := ⟨2, ![400, 10000]⟩
abbrev S128x128 : Shape := ⟨2, ![128, 128]⟩
abbrev S400 : Shape := ⟨1, ![400]⟩
abbrev S400x1 : Shape := ⟨2, ![400, 1]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S1x128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S1x10000x10000.size a
  hwx0_0 : ∀ i : grid0.Coords, EltTy.bits .f32 = 32 ∨ (Rect.block (s := S1x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S1x128x128.size a
  hwx0_2 : ∀ i : grid0.Coords, EltTy.bits .f32 = 32 ∨ (Rect.block (s := S1x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S1x10000x10000 : Shape := ⟨3, ![1, 10000, 10000]⟩
abbrev S1x128x128 : Shape := ⟨3, ![1, 128, 128]⟩
abbrev S128 : Shape := ⟨1, ![128]⟩
abbrev S_ : Shape := ⟨0, ![]⟩
abbrev S10000x10000 : Shape := ⟨2, ![10000, 10000]⟩
abbrev S128x128 : Shape := ⟨2, ![128, 128]⟩
abbrev S1x128 : Shape := ⟨2, ![1, 128]⟩
abbrev S10000 : Shape := ⟨1, ![10000]⟩
abbrev S10000x1 : Shape := ⟨2, ![10000, 1]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S1x10000x10000, .f32⟩
  | .hbm, ⟨2, _⟩ => ⟨S1x128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S10000x1, .f32⟩
  | .hbm, ⟨21, _⟩ => ⟨S10000x1, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  shapeCasts_S1x10000x10000_S10000x10000 : S1x10000x10000.ShapeCasts S10000x10000
  shapeCasts_S1x128x128_S128x128 : S1x128x128.ShapeCasts S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.GcnLaw.lean ====
/-
  The one algebraic law that joins the two programs: matrix multiplication is associative.

  The kernel multiplies a band of the adjacency by the features first and by the weights second,
  (A · X) · W; the reference multiplies the features by the weights first, A · (X · W). Entry by entry
  the first is ∑ₖ (∑ⱼ a_j · x_jk) · w_k and the second ∑ⱼ a_j · (∑ₖ x_jk · w_k). On real numbers the two
  double sums are the same terms a_j · x_jk · w_k summed in two orders. On the extended reals a product
  does not distribute over a sum that mixes +∞ and −∞, so the law is stated for entries that are real
  numbers; then every partial sum is a real number too and the real identity carries over.
-/
import proofs.«152088_g32040456028641_cont_8to1_b_1227_18_alg».proof.Proof.LibRealSums

noncomputable section

open scoped BigOperators

namespace Cert.Gcn

open Cert.RealSums

/-- (A · X) · W = A · (X · W) at one entry, for real entries read inside the extended reals. -/
theorem assoc_coe {ι κ : Type*} [Fintype ι] [Fintype κ] (a : ι → ℝ) (x : ι → κ → ℝ) (w : κ → ℝ) :
    (∑ k, (∑ j, (a j : EReal) * (x j k : EReal)) * (w k : EReal))
      = ∑ j, (a j : EReal) * ∑ k, (x j k : EReal) * (w k : EReal) := by
  simp only [← EReal.coe_mul, coe_finset_sum]
  congr 1
  simp only [Finset.sum_mul, Finset.mul_sum]
  rw [Finset.sum_comm]
  exact Finset.sum_congr rfl fun j _ => Finset.sum_congr rfl fun k _ => by ring

/-- The same for extended-real entries each of which is a real number. -/
theorem assoc_of_real {ι κ : Type*} [Fintype ι] [Fintype κ] (a : ι → EReal) (x : ι → κ → EReal) (w : κ → EReal)
    (ha : ∀ j, ∃ r : ℝ, a j = (r : EReal)) (hx : ∀ j k, ∃ r : ℝ, x j k = (r : EReal))
    (hw : ∀ k, ∃ r : ℝ, w k = (r : EReal)) :
    (∑ k, (∑ j, a j * x j k) * w k) = ∑ j, a j * ∑ k, x j k * w k := by
  choose a' ha' using ha
  choose x' hx' using hx
  choose w' hw' using hw
  obtain rfl : a = fun j => (a' j : EReal) := funext ha'
  obtain rfl : x = fun j k => (x' j k : EReal) := funext fun j => funext (hx' j)
  obtain rfl : w = fun k => (w' k : EReal) := funext hw'
  exact assoc_coe a' x' w'

end Cert.Gcn

end
-- ==== Proof.GcnSpec.lean ====
/-
  What both programs compute, as one function of the four argument arrays.

  With X the 10000 × 128 features, A the one 10000 × 10000 adjacency support, W its 128 × 128 weight
  matrix and b the bias, row p of the layer's output before normalization is (A · X · W)ₚ + b, and the
  result is that row divided by the larger of its Euclidean norm and a small floor. The two programs
  differ only in how they bracket the matrix product: `rowK` is ((A · X) · W)ₚ + b, `rowR` is
  (A · (X · W))ₚ + b. For arrays of real numbers the two rows are equal (associativity), hence so are
  the normalized outputs.
-/
import Idealize.ShloMosaic.PureOps.Ideal.Laws
import Idealize.ShloMosaic.Lib.ValueIdx
import proofs.«152088_g32040456028641_cont_8to1_b_1227_18_alg».proof.Proof.GcnLaw

noncomputable section

open scoped BigOperators

namespace Cert.Gcn

open Idealize.ShloMosaic Idealize.ShloMosaic.ValueIdx

/-- The argument arrays' shapes: features, adjacency, weights, bias. -/
abbrev SX : Shape := ⟨2, ![10000, 128]⟩
abbrev SA : Shape := ⟨3, ![1, 10000, 10000]⟩
abbrev SW : Shape := ⟨3, ![1, 128, 128]⟩
abbrev Sb : Shape := ⟨1, ![128]⟩

/-- The floor under the row norm: the f32 number nearest 10⁻¹², the same word in both programs. -/
abbrev eps : EReal := Ideal.ofBits .f32 0x2B8CBCCC#32

/-- Entry q of a row of 128 numbers divided by max(‖row‖₂, eps). -/
def rowNormalize (r : Fin 128 → EReal) (q : Fin 128) : EReal :=
  Ideal.div (r q) (max (Ideal.sqrt (∑ q' : Fin 128, r q' * r q')) eps)

/-- Entry (p, q) of (A · X) · W + b: the adjacency row against the features first. -/
def rowK (X : SX.Idx → EReal) (A : SA.Idx → EReal) (W : SW.Idx → EReal) (b : Sb.Idx → EReal)
    (p : Fin 10000) (q : Fin 128) : EReal :=
  (∑ k : Fin 128, (∑ j : Fin 10000, A (ix3 (0 : Fin 1) p j) * X (ix2 j k)) * W (ix3 (0 : Fin 1) k q)) + b (ix1 q)

/-- Entry (p, q) of A · (X · W) + b: the features against the weights first. -/
def rowR (X : SX.Idx → EReal) (A : SA.Idx → EReal) (W : SW.Idx → EReal) (b : Sb.Idx → EReal)
    (p : Fin 10000) (q : Fin 128) : EReal :=
  (∑ j : Fin 10000, A (ix3 (0 : Fin 1) p j) * ∑ k : Fin 128, X (ix2 j k) * W (ix3 (0 : Fin 1) k q)) + b (ix1 q)

/-- The normalized layer output with the product bracketed the first way. -/
def outK (X : SX.Idx → EReal) (A : SA.Idx → EReal) (W : SW.Idx → EReal) (b : Sb.Idx → EReal) : SX.Idx → EReal :=
  fun i => rowNormalize (rowK X A W b (i 0)) (i 1)

/-- The normalized layer output with the product bracketed the second way. -/
def outR (X : SX.Idx → EReal) (A : SA.Idx → EReal) (W : SW.Idx → EReal) (b : Sb.Idx → EReal) : SX.Idx → EReal :=
  fun i => rowNormalize (rowR X A W b (i 0)) (i 1)

/-- For real entries the two bracketings give the same row. -/
theorem rowK_eq_rowR (X : SX.Idx → EReal) (A : SA.Idx → EReal) (W : SW.Idx → EReal) (b : Sb.Idx → EReal)
    (hX : ∀ i, ∃ r : ℝ, X i = (r : EReal)) (hA : ∀ i, ∃ r : ℝ, A i = (r : EReal))
    (hW : ∀ i, ∃ r : ℝ, W i = (r : EReal)) (p : Fin 10000) (q : Fin 128) :
    rowK X A W b p q = rowR X A W b p q := by
  unfold rowK rowR
  rw [assoc_of_real (fun j : Fin 10000 => A (ix3 (0 : Fin 1) p j)) (fun (j : Fin 10000) (k : Fin 128) => X (ix2 j k))
    (fun k : Fin 128 => W (ix3 (0 : Fin 1) k q)) (fun j => hA _) (fun j k => hX _) (fun k => hW _)]

/-- So for real entries the two normalized outputs are one array. -/
theorem outK_eq_outR (X : SX.Idx → EReal) (A : SA.Idx → EReal) (W : SW.Idx → EReal) (b : Sb.Idx → EReal)
    (hX : ∀ i, ∃ r : ℝ, X i = (r : EReal)) (hA : ∀ i, ∃ r : ℝ, A i = (r : EReal))
    (hW : ∀ i, ∃ r : ℝ, W i = (r : EReal)) : outK X A W b = outR X A W b := by
  funext i
  unfold outK outR
  have e : rowK X A W b (i 0) = rowR X A W b (i 0) := funext fun q => rowK_eq_rowR X A W b hX hA hW (i 0) q
  rw [e]

end Cert.Gcn

end
-- ==== Proof.GcnPieces.lean ====
/-
  What one grid step leaves behind, as values.

  The kernel keeps a copy of the features in a scratch buffer that lives across the 25 grid steps. At
  the first step it loads the features, narrows them to bf16 and stores them in the scratch buffer;
  at every step it then reads the scratch buffer back, multiplies the step's band of 400 adjacency
  rows by it, multiplies by the weights, adds the bias and normalizes the rows. So:

    first step:   scratch := narrowed features;   output block := body(band, narrowed features, W, b)
    later steps:  scratch unchanged;              output block := body(band, scratch, W, b)

  where `body` is the step's arithmetic as one pure function (the generated `k0_pay2`) and the
  narrowing is `k0_pay1`. By induction over the steps the scratch buffer holds the narrowed features
  after every step, so every step's output block is `body` of its band and the narrowed features.
-/
import proofs.«152088_g32040456028641_cont_8to1_b_1227_18_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later step: the output block is the body's arithmetic of the band, the scratch buffer as the step
    before left it, the weights and the bias. Each load reads a whole buffer. -/
theorem out_later (c : Dev nD) (i : grid0.Coords) (a1 : Memref sig .tc .vmem S1x400x10000 .f32) (h1 : a1.IsWhole)
    (a2 : Memref sig .tc .vmem S10000x128 .f32) (h2 : a2.IsWhole) (a3 : Memref sig .tc .vmem S1x128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole) (hc : ¬cond0_0 i)
    (x0 : Vec F S1x400x10000 .f32) (x1 : Vec F S10000x128 .f32) (x2 : Vec F S1x128x128 .f32) (x3 : Vec F S1x128 .f32) (xs0 : Vec F S10000x128 .bf16) :
    out0_B_4 c i a1 h1 a2 h2 a3 h3 a4 h4 a5 h5 a6 h6 hc x0 x1 x2 x3 xs0 = k0_pay2 x0 xs0 x2 x3 := by
  unfold out0_B_4
  rw [View.read_writes_eq_canon _ _ _ (cover0_B_4 c i a1 h1 a2 h2 a3 h3 a4 h4 a5 h5 a6 h6 hc x0 x1 x2 x3 xs0)]
  unfold kernelRun0_B
  dsimp only
  rw [View.canon_unit_zero hz2]
  simp only [View.readAt_eq_ld, h1.read_unread, h3.read_unread, h4.read_unread, h6.read_unread,
    View.ld_unit_zero (S := S1x400x10000) hz3, View.ld_unit_zero (S := S10000x128) hz2,
    View.ld_unit_zero (S := S1x128x128) hz3, View.ld_unit_zero (S := S1x128) hz2]

/-- The first step stores the narrowed features into the scratch buffer. -/
theorem scratch_first (c : Dev nD) (i : grid0.Coords) (a1 : Memref sig .tc .vmem S1x400x10000 .f32) (h1 : a1.IsWhole)
    (a2 : Memref sig .tc .vmem S10000x128 .f32) (h2 : a2.IsWhole) (a3 : Memref sig .tc .vmem S1x128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S1x400x10000 .f32) (x1 : Vec F S10000x128 .f32) (x2 : Vec F S1x128x128 .f32) (x3 : Vec F S1x128 .f32) :
    sout0_A_0 c i a1 h1 a2 h2 a3 h3 a4 h4 a5 h5 a6 h6 hc x0 x1 x2 x3 = k0_pay1 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz2]
  simp only [View.readAt_eq_ld, h2.read_unread, View.ld_unit_zero (S := S10000x128) hz2]

/-- The first step: the scratch buffer is read back right after it was stored, so the output block is
    the body's arithmetic of the band and the narrowed features. -/
theorem out_first (c : Dev nD) (i : grid0.Coords) (a1 : Memref sig .tc .vmem S1x400x10000 .f32) (h1 : a1.IsWhole)
    (a2 : Memref sig .tc .vmem S10000x128 .f32) (h2 : a2.IsWhole) (a3 : Memref sig .tc .vmem S1x128x128 .f32) (h3 : a3.IsWhole)
    (a4 : Memref sig .tc .vmem S1x128 .f32) (h4 : a4.IsWhole) (a5 : Memref sig .tc .vmem S400x128 .f32) (h5 : a5.IsWhole)
    (a6 : Memref sig .tc .vmem S10000x128 .bf16) (h6 : a6.IsWhole) (hc : cond0_0 i)
    (x0 : Vec F S1x400x10000 .f32) (x1 : Vec F S10000x128 .f32) (x2 : Vec F S1x128x128 .f32) (x3 : Vec F S1x128 .f32) :
    out0_A_4 c i a1 h1 a2 h2 a3 h3 a4 h4 a5 h5 a6 h6 hc x0 x1 x2 x3 = k0_pay2 x0 (k0_pay1 x1) x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz2]
  simp only [View.readAt_eq_ld, h1.read_unread, h2.read_unread, h3.read_unread, h4.read_unread,
    View.readCov_unit_zero (S := S10000x128) _ hz2,
    View.ld_unit_zero (S := S1x400x10000) hz3, View.ld_unit_zero (S := S10000x128) hz2,
    View.ld_unit_zero (S := S1x128x128) hz3, View.ld_unit_zero (S := S1x128) hz2]

/-! ## The 25 steps -/

variable (m : (ℓ : Loc nD τ sig) → Buf (Elt F) ℓ)

/-- After every step the scratch buffer holds the narrowed copy of the features the first step made:
    the first step stores it, no later step writes the buffer. -/
theorem scratch_eq (c : Dev nD) (n : ℕ) : ∀ h : n < cfg0.N,
    (outsAt0 m c n h).2 = k0_pay1 (iblk m c 1 ⟨0, Nat.lt_of_le_of_lt (Nat.zero_le n) h⟩) := by
  induction n with
  | zero =>
    intro h
    rw [outsAt0_A m c ⟨0, h⟩ rfl]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)
  | succ n ih =>
    intro h
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    show (outsAt0 m c n _).2 = _
    exact ih (Nat.lt_of_succ_lt h)

/-- So every step's output block is the body's arithmetic of that step's adjacency band, the narrowed
    features, the weights and the bias. -/
theorem out_eq (c : Dev nD) (t : Fin cfg0.N) :
    (outsAt0 m c t.val t.isLt).1
      = k0_pay2 (iblk m c 0 t) (k0_pay1 (iblk m c 1 ⟨0, Nat.lt_of_le_of_lt (Nat.zero_le _) t.isLt⟩)) (iblk m c 2 t) (iblk m c 3 t) := by
  have hN : cfg0.N = 25 := N_0
  by_cases h0 : t.val % 25 = 0
  · obtain ⟨n, hn⟩ := t
    have hn0 : n = 0 := by dsimp only at h0; omega
    subst hn0
    rw [outsAt0_A m c ⟨0, hn⟩ h0]
    dsimp only
    exact out_first c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩)
  · rw [outsAt0_B m c t h0]
    dsimp only
    refine (out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _).trans ?_
    rw [scratch_eq m c (t.val - 1) _]

end Cert.KernelIdeal.Pieces

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.GcnPayload.lean ====
/-
  One grid step's arithmetic, read entry by entry.

  A step takes a band of 400 adjacency rows (as a 1 × 400 × 10000 block), the 10000 × 128 features (from
  the scratch buffer), the 1 × 128 × 128 weights and the bias as a 1 × 128 row. Entry (p, q) of what it
  stores is, with y the 400 × 128 block

      y(p, q') = ∑ₖ (∑ⱼ band(0, p, j) · feat(j, k)) · W(0, k, q') + bias(0, q'),

  the entry y(p, q) divided by max(√(∑_q' y(p, q')²), eps): the band times the features, times the
  weights, plus the bias, each row divided by its norm. The narrowing of the operands to bf16 is the
  identity on extended reals, both products accumulate into zero, and the row sum starts from zero.
-/
import proofs.«152088_g32040456028641_cont_8to1_b_1227_18_alg».proof.Proof.Gen.KernelIdeal.Skeleton
import proofs.«152088_g32040456028641_cont_8to1_b_1227_18_alg».proof.Proof.LibPlainDot
import proofs.«152088_g32040456028641_cont_8to1_b_1227_18_alg».proof.Proof.LibRowOps
import proofs.«152088_g32040456028641_cont_8to1_b_1227_18_alg».proof.Proof.GcnSpec
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- Both products have the plain dimension numbers of an M × K by K × N product. -/
theorem dot_band_eq : dot_S400x10000_S10000x128_S400x128_1_0_0_1_n_n = DotDims.plain 400 10000 128 := rfl
theorem dot_weights_eq : dot_S400x128_S128x128_S400x128_1_0_0_1_n_n = DotDims.plain 400 128 128 := rfl

/-- The band with its unit leading axis dropped: entry (p, j) is entry (0, p, j). -/
theorem band_apply {α : Type} (x0 : S1x400x10000.Idx → α) (p : Fin 400) (j : Fin 10000) :
    shapeCast S400x10000 x0 shapeCasts_S1x400x10000_S400x10000 (ix2 p j) = x0 (ix3 (0 : Fin 1) p j) :=
  shapeCast_apply x0 _ (ix2 p j) (ix3 (0 : Fin 1) p j) (by
    rw [Shape.rowMajor_val_three, Shape.rowMajor_val_two]
    show ((0 : ℕ) * 400 + p.val) * 10000 + j.val = p.val * 10000 + j.val
    omega)

/-- The weights with their unit leading axis dropped: entry (k, q) is entry (0, k, q). -/
theorem weights_apply {α : Type} (x2 : S1x128x128.Idx → α) (k q : Fin 128) :
    shapeCast S128x128 x2 shapeCasts_S1x128x128_S128x128 (ix2 k q) = x2 (ix3 (0 : Fin 1) k q) :=
  shapeCast_apply x2 _ (ix2 k q) (ix3 (0 : Fin 1) k q) (by
    rw [Shape.rowMajor_val_three, Shape.rowMajor_val_two]
    show ((0 : ℕ) * 128 + k.val) * 128 + q.val = k.val * 128 + q.val
    omega)

/-- The bias row repeated over the 400 rows: entry (p, q) is entry (0, q). -/
theorem bias_apply {α : Type} (v : S1x128.Idx → α) (p : Fin 400) (q : Fin 128) :
    broadcastTo S400x128 v broadcasts_S1x128_S400x128 (ix2 p q) = v (ix2 (0 : Fin 1) q) := by
  refine broadcastTo_apply v _ (ix2 p q) (ix2 (0 : Fin 1) q) fun ax => ?_
  match ax with
  | ⟨0, _⟩ => show (0 : ℕ) = if (1 : ℕ) = 1 then 0 else p.val; rw [if_pos rfl]
  | ⟨1, _⟩ => show q.val = if (128 : ℕ) = 1 then 0 else q.val; rw [if_neg (by decide)]

/-- The step's 400 × 128 block before the rows are normalized. -/
def pre (x0 : FVec Ideal S1x400x10000 .f32) (xs : FVec Ideal S10000x128 .bf16) (x2 : FVec Ideal S1x128x128 .f32)
    (x3 : FVec Ideal S1x128 .f32) : FVec Ideal S400x128 .f32 :=
  addf (matmul dot_S400x128_S128x128_S400x128_1_0_0_1_n_n none
      (matmul dot_S400x10000_S10000x128_S400x128_1_0_0_1_n_n none
        (truncf (F := Ideal) (φ := .f32) .bf16 (shapeCast S400x10000 x0 shapeCasts_S1x400x10000_S400x10000) bitsLt_bf16_f32)
        xs (constant S400x128 .f32 0x00000000#32))
      (shapeCast S128x128 x2 shapeCasts_S1x128x128_S128x128) (constant S400x128 .f32 0x00000000#32))
    (broadcastTo S400x128 (shapeCast S1x128 x3 shapeCasts_S1x128_S1x128) broadcasts_S1x128_S400x128)

/-- Entry (p, q) of that block: (band · features · weights)(p, q) plus the bias. -/
theorem pre_apply (x0 : FVec Ideal S1x400x10000 .f32) (xs : FVec Ideal S10000x128 .bf16) (x2 : FVec Ideal S1x128x128 .f32)
    (x3 : FVec Ideal S1x128 .f32) (p : Fin 400) (q : Fin 128) :
    pre x0 xs x2 x3 (ix2 p q)
      = (∑ k : Fin 128, (∑ j : Fin 10000, x0 (ix3 (0 : Fin 1) p j) * xs (ix2 j k)) * x2 (ix3 (0 : Fin 1) k q))
        + x3 (ix2 (0 : Fin 1) q) := by
  have eband : ∀ k : Fin 128,
      matmul dot_S400x10000_S10000x128_S400x128_1_0_0_1_n_n none
        (truncf (F := Ideal) (φ := .f32) .bf16 (shapeCast S400x10000 x0 shapeCasts_S1x400x10000_S400x10000) bitsLt_bf16_f32)
        xs (constant S400x128 .f32 0x00000000#32) (ix2 p k)
        = ∑ j : Fin 10000, x0 (ix3 (0 : Fin 1) p j) * xs (ix2 j k) := fun k => by
    refine (PlainDot.matmul_zero_apply (M := 400) (K := 10000) (N := 128) none _ _ p k).trans ?_
    exact Finset.sum_congr rfl fun j _ => congrArg (· * xs (ix2 j k)) (band_apply x0 p j)
  unfold pre
  show matmul dot_S400x128_S128x128_S400x128_1_0_0_1_n_n none _ _ _ (ix2 p q) + broadcastTo S400x128 _ _ (ix2 p q) = _
  rw [bias_apply, shapeCast_self]
  refine congrArg (· + x3 (ix2 (0 : Fin 1) q)) ?_
  refine (PlainDot.matmul_zero_apply (M := 400) (K := 128) (N := 128) none _ _ p q).trans ?_
  exact Finset.sum_congr rfl fun k _ => by rw [eband k, weights_apply]

/-- The step's stored block, entry (p, q): row p of the block above, normalized. -/
theorem pay2_apply (x0 : FVec Ideal S1x400x10000 .f32) (xs : FVec Ideal S10000x128 .bf16) (x2 : FVec Ideal S1x128x128 .f32)
    (x3 : FVec Ideal S1x128 .f32) (p : Fin 400) (q : Fin 128) :
    k0_pay2 (F := Ideal) x0 xs x2 x3 (ix2 p q)
      = Cert.Gcn.rowNormalize (fun q' : Fin 128 =>
          (∑ k : Fin 128, (∑ j : Fin 10000, x0 (ix3 (0 : Fin 1) p j) * xs (ix2 j k)) * x2 (ix3 (0 : Fin 1) k q'))
            + x3 (ix2 (0 : Fin 1) q')) q := by
  have hk : k0_pay2 (F := Ideal) x0 xs x2 x3
      = divf (pre x0 xs x2 x3)
          (broadcastTo S400x128
            (maximumf
              (sqrt (shapeCast S400x1
                (multiReduction (F := Ideal) .add [1] S400 (mulf (pre x0 xs x2 x3) (pre x0 xs x2 x3)) 0x00000000#32
                  reduces_S400x128_S400 (.inl rfl) rfl) shapeCasts_S400_S400x1))
              (broadcast S400x1 (Scalar.ofBits (F := Ideal) .f32 0x2B8CBCCC#32)))
            broadcasts_S400x1_S400x128) := rfl
  rw [hk]
  unfold Cert.Gcn.rowNormalize
  show Ideal.div (pre x0 xs x2 x3 (ix2 p q)) (broadcastTo S400x128 _ _ (ix2 p q)) = _
  rw [RowOps.colBcast_apply]
  show Ideal.div _ (max (Ideal.sqrt (shapeCast S400x1 _ _ (ix2 p (0 : Fin 1)))) (Ideal.ofBits .f32 0x2B8CBCCC#32)) = _
  rw [RowOps.colCast_apply]
  have hsum := RowOps.rowSum_vector (a := 400) (b := 128) (mulf (pre x0 xs x2 x3) (pre x0 xs x2 x3)) 0x00000000#32
    reduces_S400x128_S400 (.inl rfl) rfl p
  refine (congrArg (fun s => Ideal.div (pre x0 xs x2 x3 (ix2 p q))
    (max (Ideal.sqrt s) (Ideal.ofBits .f32 0x2B8CBCCC#32))) hsum).trans ?_
  simp only [mulf_apply, pre_apply]

/-- The narrowing of the features to bf16 changes no entry. -/
theorem pay1_apply (x1 : FVec Ideal S10000x128 .f32) (i : S10000x128.Idx) : k0_pay1 (F := Ideal) x1 i = x1 i := by
  unfold k0_pay1
  rw [shapeCast_self]
  rfl

end Cert.KernelIdeal.Payload

end
-- ==== Proof.GcnBlocks.lean ====
/-
  From the 25 output blocks to the whole result array.

  Grid step t reads rows 400·t … 400·t + 399 of the adjacency (all 10000 columns), the whole features,
  weights and bias, and writes rows 400·t … 400·t + 399 of the result. Entry (p, q) of the block step t
  writes is therefore entry (400·t + p, q) of the specification's first bracketing, (A · X) · W + b with
  its rows normalized, of the four argument arrays. The 25 blocks tile the 10000 rows (row r lies in the
  block of step r / 400), so after the run the result array is that one function of the arguments.
-/
import proofs.«152088_g32040456028641_cont_8to1_b_1227_18_alg».proof.Proof.Gen.KernelIdeal.Value
import proofs.«152088_g32040456028641_cont_8to1_b_1227_18_alg».proof.Proof.GcnPieces
import proofs.«152088_g32040456028641_cont_8to1_b_1227_18_alg».proof.Proof.GcnPayload
import proofs.«152088_g32040456028641_cont_8to1_b_1227_18_alg».proof.Proof.GcnSpec
import Idealize.ShloMosaic.Lib.Pipeline.Value
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx

variable (m : (ℓ : Loc nD τ sig) → Buf (Elt Ideal) ℓ) (ρ : Dev nD → PrngReg)

/-- Where each window's block sits at grid step t: the adjacency band and the output block at row block
    t, everything else at the origin. Decided over the 25 steps. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of step t's block is row 400·t + p of the array. -/
abbrev rowOf (t : Fin cfg0.N) (p : Fin 400) : Fin 10000 :=
  ⟨400 * t.val + p.val, by have := lt_of_lt_of_eq t.isLt (show cfg0.N = 25 from N_0); have := p.isLt; omega⟩

/-- The adjacency band at step t: entry (0, p, j) is the adjacency's entry (0, 400·t + p, j). -/
theorem band_at (c : Dev nD) (t : Fin cfg0.N) (p : Fin 400) (j : Fin 10000) :
    iblk m c 0 t (ix3 (0 : Fin 1) p j) = (m ((c : Thread nD τ).loc main_arg1)) (ix3 (0 : Fin 1) (rowOf t p) j) := by
  obtain ⟨e0, e1, e2, -⟩ := idx_facts t
  show V m c main_arg1 (((cfg0.win 0).blk t).view.emb (ix3 (0 : Fin 1) p j)) = _
  rw [V_main_arg1]
  refine congrArg _ (funext fun a => Fin.ext ?_)
  match a with
  | ⟨0, _⟩ => show win0_0.index t (0 : Fin 3) * 1 + 1 * 0 = 0; omega
  | ⟨1, _⟩ => show win0_0.index t (1 : Fin 3) * 400 + 1 * p.val = 400 * t.val + p.val; omega
  | ⟨2, _⟩ => show win0_0.index t (2 : Fin 3) * 10000 + 1 * j.val = j.val; omega

/-- The features window holds the whole features at every step. -/
theorem feat_at (c : Dev nD) (t : Fin cfg0.N) (j : Fin 10000) (k : Fin 128) :
    iblk m c 1 t (ix2 j k) = (m ((c : Thread nD τ).loc main_arg0)) (ix2 j k) := by
  obtain ⟨-, -, -, e0, e1, -⟩ := idx_facts t
  show V m c main_arg0 (((cfg0.win 1).blk t).view.emb (ix2 j k)) = _
  rw [V_main_arg0]
  refine congrArg _ (funext fun a => Fin.ext ?_)
  match a with
  | ⟨0, _⟩ => show win0_1.index t (0 : Fin 2) * 10000 + 1 * j.val = j.val; omega
  | ⟨1, _⟩ => show win0_1.index t (1 : Fin 2) * 128 + 1 * k.val = k.val; omega

/-- The weights window holds the whole weights at every step. -/
theorem wts_at (c : Dev nD) (t : Fin cfg0.N) (k q : Fin 128) :
    iblk m c 2 t (ix3 (0 : Fin 1) k q) = (m ((c : Thread nD τ).loc main_arg2)) (ix3 (0 : Fin 1) k q) := by
  obtain ⟨-, -, -, -, -, e0, e1, e2, -⟩ := idx_facts t
  show V m c main_arg2 (((cfg0.win 2).blk t).view.emb (ix3 (0 : Fin 1) k q)) = _
  rw [V_main_arg2]
  refine congrArg _ (funext fun a => Fin.ext ?_)
  match a with
  | ⟨0, _⟩ => show win0_2.index t (0 : Fin 3) * 1 + 1 * 0 = 0; omega
  | ⟨1, _⟩ => show win0_2.index t (1 : Fin 3) * 128 + 1 * k.val = k.val; omega
  | ⟨2, _⟩ => show win0_2.index t (2 : Fin 3) * 128 + 1 * q.val = q.val; omega

/-- The bias window's array is the bias reshaped to one row by the host before the kernel is launched. -/
theorem V_bias (c : Dev nD) :
    (V m c main_call0_v0 : S1x128.Idx → EReal) = shapeCast S1x128 (m ((c : Thread nD τ).loc main_arg3)) shapeCasts_S128_S1x128 := by
  dsimp only [Gen.V, Gen.hostOps0]
  after_results
  rfl

/-- The bias window holds that row at every step: entry (0, q) is the bias's entry q. -/
theorem bias_at (c : Dev nD) (t : Fin cfg0.N) (q : Fin 128) :
    iblk m c 3 t (ix2 (0 : Fin 1) q) = (m ((c : Thread nD τ).loc main_arg3)) (ix1 q) := by
  obtain ⟨-, -, -, -, -, -, -, -, e0, e1, -⟩ := idx_facts t
  show V m c main_call0_v0 (((cfg0.win 3).blk t).view.emb (ix2 (0 : Fin 1) q)) = _
  have hi : ((cfg0.win 3).blk t).view.emb (ix2 (0 : Fin 1) q) = ix2 (0 : Fin 1) q := funext fun a => Fin.ext (by
    match a with
    | ⟨0, _⟩ => show win0_3.index t (0 : Fin 2) * 1 + 1 * 0 = 0; omega
    | ⟨1, _⟩ => show win0_3.index t (1 : Fin 2) * 128 + 1 * q.val = q.val; omega)
  rw [hi]
  refine (congrFun (V_bias m c) (ix2 (0 : Fin 1) q)).trans ?_
  exact shapeCast_apply _ shapeCasts_S128_S1x128 (ix2 (0 : Fin 1) q) (ix1 q) (by
    rw [Shape.rowMajor_val_one, Shape.rowMajor_val_two]; show q.val = 0 * 128 + q.val; omega)

/-- The result array as the specification gives it from the four argument arrays. -/
abbrev result (c : Dev nD) : Buf (Elt Ideal) ((c : Thread nD τ).loc main_v0) :=
  Cert.Gcn.outK (m ((c : Thread nD τ).loc main_arg0)) (m ((c : Thread nD τ).loc main_arg1)) (m ((c : Thread nD τ).loc main_arg2)) (m ((c : Thread nD τ).loc main_arg3))

/-- What step t writes back is block t of that array. -/
theorem flushed_eq (c : Dev nD) (t : Fin cfg0.N) :
    (dats m 0 c).flushed 4 t = ((cfg0.win 4).blk t).view.read (Elt Ideal) (result m c) := by
  obtain ⟨-, -, -, -, -, -, -, -, -, -, e0, e1⟩ := idx_facts t
  rw [flushed4, Pieces.out_eq]
  funext y
  obtain ⟨p, q, rfl⟩ : ∃ (p : Fin 400) (q : Fin 128), y = ix2 p q := ⟨y 0, y 1, eq_ix2 y⟩
  show k0_pay2 (F := Ideal) (iblk m c 0 t) (k0_pay1 (iblk m c 1 ⟨0, Nat.lt_of_le_of_lt (Nat.zero_le _) t.isLt⟩)) (iblk m c 2 t) (iblk m c 3 t) (ix2 p q)
    = result m c (((cfg0.win 4).blk t).view.emb (ix2 p q))
  have hi : ((cfg0.win 4).blk t).view.emb (ix2 p q) = ix2 (rowOf t p) q := funext fun a => Fin.ext (by
    match a with
    | ⟨0, _⟩ => show win0_4.index t (0 : Fin 2) * 400 + 1 * p.val = 400 * t.val + p.val; omega
    | ⟨1, _⟩ => show win0_4.index t (1 : Fin 2) * 128 + 1 * q.val = q.val; omega)
  rw [hi]
  refine (Payload.pay2_apply (iblk m c 0 t) (k0_pay1 (iblk m c 1 ⟨0, Nat.lt_of_le_of_lt (Nat.zero_le _) t.isLt⟩)) (iblk m c 2 t) (iblk m c 3 t) p q).trans ?_
  show _ = Cert.Gcn.rowNormalize (Cert.Gcn.rowK (m ((c : Thread nD τ).loc main_arg0)) (m ((c : Thread nD τ).loc main_arg1)) (m ((c : Thread nD τ).loc main_arg2)) (m ((c : Thread nD τ).loc main_arg3)) (rowOf t p)) q
  refine congrArg (fun r => Cert.Gcn.rowNormalize r q) (funext fun q' => ?_)
  unfold Cert.Gcn.rowK
  simp only [band_at, wts_at, bias_at, Payload.pay1_apply, feat_at]

/-- Every row of the array lies in some step's block: row r in the block of step r / 400. -/
theorem cover (i : S10000x128.Idx) : ∃ t : Fin cfg0.N, (cfg0.win 4).flush t = true ∧ i ∈ ((cfg0.win 4).blk t).view.set := by
  have h0 : (i 0).val < 10000 := (i 0).isLt
  have h1 : (i 1).val < 128 := (i 1).isLt
  have hN : cfg0.N = 25 := N_0
  let t : Fin cfg0.N := ⟨(i 0).val / 400, by rw [hN]; omega⟩
  obtain ⟨-, -, -, -, -, -, -, -, -, -, e0, e1⟩ := idx_facts t
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 2) * 400 ≤ (i 0).val ∧ (i 0).val < win0_4.index t (0 : Fin 2) * 400 + 400
    rw [e0]; show (i 0).val / 400 * 400 ≤ (i 0).val ∧ (i 0).val < (i 0).val / 400 * 400 + 400; omega
  | ⟨1, _⟩ =>
    show win0_4.index t (1 : Fin 2) * 128 ≤ (i 1).val ∧ (i 1).val < win0_4.index t (1 : Fin 2) * 128 + 128
    rw [e1]; omega

/-- So the result array ends holding the specification's first bracketing. -/
theorem final (c : Dev nD) : (dats m 0 c).arrAt 4 cfg0.N = result m c :=
  (dats m 0 c).arrAt_eq_of_cover 4 (result m c) (fun t _ => flushed_eq m c t) cover

/-- The kernel's run, read: the result array at the specification's value, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Blocks

end
-- ==== Proof.GcnRef.lean ====
/-
  The reference program's result, entry by entry.

  The reference drops the unit axes of the adjacency and the weights, forms X · W, then A · (X · W), adds
  that to a zero array, adds the bias spread over the rows, and divides each row by the larger of its
  norm (the square root of the sum of its squares, started from zero) and the floor. Read at (p, q) this
  is row p of A · (X · W) + b, normalized: the second bracketing of the specification.
-/
import proofs.«152088_g32040456028641_cont_8to1_b_1227_18_alg».proof.Proof.Gen.ReferenceIdeal.Read
import proofs.«152088_g32040456028641_cont_8to1_b_1227_18_alg».proof.Proof.GcnSpec

noncomputable section

open scoped BigOperators

namespace Cert.ReferenceIdeal.RefValue

open Cert.ReferenceIdeal Cert.ReferenceIdeal.Gen Cert.ReferenceIdeal.Read Idealize.ShloMosaic Idealize.ShloMosaic.ValueIdx

/-- Entry (p, j) of the adjacency with its unit axis dropped is entry (0, p, j). -/
theorem idx_adj (p : Fin 10000) (q : Fin 128) (j : Fin 10000) :
    idx_main_v1 (lidx_main_v4 (ix2 p q) j) = ix3 (0 : Fin 1) p j := by
  funext a; apply Fin.ext
  have hp := p.isLt; have hj := j.isLt
  match a with
  | ⟨0, _⟩ => rfl
  | ⟨1, _⟩ => show (p.val * 10000 + j.val) / 10000 % 10000 = p.val; omega
  | ⟨2, _⟩ => show (p.val * 10000 + j.val) % 10000 = j.val; omega

/-- The features' entry the inner product reads: (j, k). -/
theorem idx_feat (p : Fin 10000) (q : Fin 128) (j : Fin 10000) (k : Fin 128) :
    lidx_main_v3 (ridx_main_v4 (ix2 p q) j) k = ix2 j k := by
  funext a; apply Fin.ext
  match a with
  | ⟨0, _⟩ => rfl
  | ⟨1, _⟩ => rfl

/-- Entry (k, q) of the weights with their unit axis dropped is entry (0, k, q). -/
theorem idx_wts (p : Fin 10000) (q : Fin 128) (j : Fin 10000) (k : Fin 128) :
    idx_main_v2 (ridx_main_v3 (ridx_main_v4 (ix2 p q) j) k) = ix3 (0 : Fin 1) k q := by
  funext a; apply Fin.ext
  have hk := k.isLt; have hq := q.isLt
  match a with
  | ⟨0, _⟩ => rfl
  | ⟨1, _⟩ => show (k.val * 128 + q.val) / 128 % 128 = k.val; omega
  | ⟨2, _⟩ => show (k.val * 128 + q.val) % 128 = q.val; omega

/-- The bias spread over the rows reads entry q. -/
theorem idx_bias (p : Fin 10000) (q : Fin 128) : idx_main_v6 (idx_main_v7 (ix2 p q)) = ix1 q := by
  funext a; apply Fin.ext
  match a with
  | ⟨0, _⟩ => rfl

/-- The row sum at (p, ·) runs over the entries (p, k). -/
theorem idx_rows (p : Fin 10000) (q : Fin 128) (k : Fin 128) :
    idx_main_v10 (idx_main_v11 (idx_main_v15 (ix2 p q))) k = ix2 p k := by
  funext a; apply Fin.ext
  match a with
  | ⟨0, _⟩ => rfl
  | ⟨1, _⟩ => rfl

/-- Before normalization the reference holds A · (X · W) + b. -/
theorem v8_apply (x0 : (⟨S10000x128, .f32⟩ : BufTy).Contents (Elt Ideal)) (x1 : (⟨S1x10000x10000, .f32⟩ : BufTy).Contents (Elt Ideal)) (x2 : (⟨S1x128x128, .f32⟩ : BufTy).Contents (Elt Ideal)) (x3 : (⟨S128, .f32⟩ : BufTy).Contents (Elt Ideal))
    (p : Fin 10000) (q : Fin 128) :
    val_main_v8 (F := Ideal) x0 x1 x2 x3 (ix2 p q) = Cert.Gcn.rowR x0 x1 x2 x3 p q := by
  rw [val_main_v8_apply, val_main_v5_apply, val_main_v0_apply, val_main_cst_apply, val_main_v4_apply, val_main_v7_apply,
    val_main_v6_apply]
  simp only [val_main_v1_apply, val_main_v3_apply, val_main_v2_apply, idx_adj, idx_feat, idx_wts, idx_bias,
    Ideal.addf_def, Ideal.ofBits_def, Ideal.ofBits_zero_f32, zero_add]
  rfl

/-- The reference's result is the specification with the product bracketed A · (X · W). -/
theorem ref_eq (x0 : (⟨S10000x128, .f32⟩ : BufTy).Contents (Elt Ideal)) (x1 : (⟨S1x10000x10000, .f32⟩ : BufTy).Contents (Elt Ideal)) (x2 : (⟨S1x128x128, .f32⟩ : BufTy).Contents (Elt Ideal)) (x3 : (⟨S128, .f32⟩ : BufTy).Contents (Elt Ideal)) :
    val_main_v16 (F := Ideal) x0 x1 x2 x3 = Cert.Gcn.outR x0 x1 x2 x3 := by
  funext i
  obtain ⟨p, q, rfl⟩ : ∃ (p : Fin 10000) (q : Fin 128), i = ix2 p q := ⟨i 0, i 1, eq_ix2 i⟩
  rw [val_main_v16_apply, val_main_v15_apply, val_main_v14_apply, val_main_v12_apply, val_main_v11_apply,
    val_main_v10_apply, val_main_v13_apply, val_main_cst_1_apply, val_main_cst_0_apply, v8_apply]
  simp only [val_main_v9_apply, idx_rows, v8_apply, Ideal.hostDivf_def, Ideal.hostUnary_sqrt_def, Ideal.maximumf_def,
    Ideal.mulf_def, Ideal.ofBits_def, Ideal.ofBits_zero_f32, zero_add]
  rfl

end Cert.ReferenceIdeal.RefValue

end
-- ==== Proof.GcnFinite.lean ====
/-
  The precondition, read back: every entry of every argument array is a real number.

  The claim's precondition is the conjunction, over the four argument arrays, of "all entries satisfy
  |x| < +∞". On the extended reals |x| = max(x, −x) is +∞ exactly at x = +∞ and x = −∞, so each entry is a
  real number. This is what the associativity of the matrix product needs.
-/
import proofs.«152088_g32040456028641_cont_8to1_b_1227_18_alg».proof.Pre_finite_inputs
import Idealize.ShloMosaic.Lib.ReduceAll
import Idealize.ShloMosaic.Lib.ValueIdx
import Idealize.ShloMosaic.PureOps.Ideal.Laws

noncomputable section

namespace Cert.Gcn.Finite

open Idealize.ShloMosaic Cert.Pre_finite_inputs

/-- The scalar shape has one index. -/
instance : Subsingleton S_.Idx := ⟨fun a b => funext fun d => d.elim0⟩

/-- An extended real whose absolute value is below +∞ (the f32 infinity word) is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

variable [Facts]

/-- Under the precondition all four argument arrays hold real numbers. -/
theorem real_of_pre (a0 : FVec Ideal S10000x128 .f32) (a1 : FVec Ideal S1x10000x10000 .f32)
    (a2 : FVec Ideal S1x128x128 .f32) (a3 : FVec Ideal S128 .f32)
    (h : fn (F := Ideal) a0 a1 a2 a3 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt _ (Host.reduce_andi_all _ _ _ _ _ h0' i),
    fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i)⟩

end Cert.Gcn.Finite

end
-- ==== Proof.lean ====
/-
  A dense graph-convolution layer with row normalization: out = normalize(A · X · W + b), rows divided by
  max(‖row‖₂, 10⁻¹²), for X : 10000 × 128, one 10000 × 10000 support A, W : 128 × 128, b : 128.

  The kernel walks 25 bands of 400 adjacency rows. It copies the features once, at the first band, into a
  buffer that persists across the bands (narrowed to bf16, which on the extended reals changes nothing),
  and for every band forms (band · X) · W + b and normalizes the 400 rows it has. The reference forms
  A · (X · W) + b for all rows at once and normalizes. Over the extended reals the two agree entry by
  entry once the matrix product is re-bracketed, (A · X) · W = A · (X · W); that law needs the entries to be
  real numbers (a product does not distribute over a sum of opposite infinities), which is what the
  precondition says. Everything after the product — bias, sum of squares from zero, square root, the floor
  (the same f32 word on both sides), the division — is the same function applied to the same row.

  The modules: GcnLaw (associativity on real entries), GcnSpec (the two bracketings as whole-array
  functions and their equality), GcnPayload (a band's arithmetic at an entry), GcnPieces (what each band
  leaves in the persistent buffer and the output block), GcnBlocks (the 25 blocks tile the result),
  GcnRef (the reference at an entry), GcnFinite (the precondition gives real entries). The kernel's
  and the reference's runs themselves, and the three frame claims, are the generated modules'.
  No operation of the kernel was rewritten for the idealized reading, so that claim is trivial.
-/
import proofs.«152088_g32040456028641_cont_8to1_b_1227_18_alg».proof.Defs
import proofs.«152088_g32040456028641_cont_8to1_b_1227_18_alg».proof.Proof.Gen.Kernel
import proofs.«152088_g32040456028641_cont_8to1_b_1227_18_alg».proof.Proof.Gen.Kernel.Skeleton
import proofs.«152088_g32040456028641_cont_8to1_b_1227_18_alg».proof.Proof.Gen.Kernel.Launch
import proofs.«152088_g32040456028641_cont_8to1_b_1227_18_alg».proof.Proof.Gen.Kernel.Points
import proofs.«152088_g32040456028641_cont_8to1_b_1227_18_alg».proof.Proof.Gen.Kernel.Frame
import proofs.«152088_g32040456028641_cont_8to1_b_1227_18_alg».proof.Proof.Gen.KernelIdeal
import proofs.«152088_g32040456028641_cont_8to1_b_1227_18_alg».proof.Proof.Gen.KernelIdeal.Skeleton
import proofs.«152088_g32040456028641_cont_8to1_b_1227_18_alg».proof.Proof.Gen.KernelIdeal.Launch
import proofs.«152088_g32040456028641_cont_8to1_b_1227_18_alg».proof.Proof.Gen.KernelIdeal.Points
import proofs.«152088_g32040456028641_cont_8to1_b_1227_18_alg».proof.Proof.Gen.KernelIdeal.Frame
import proofs.«152088_g32040456028641_cont_8to1_b_1227_18_alg».proof.Proof.Gen.ReferenceIdeal
import proofs.«152088_g32040456028641_cont_8to1_b_1227_18_alg».proof.Proof.Gen.Pre_finite_inputs
import proofs.«152088_g32040456028641_cont_8to1_b_1227_18_alg».proof.Proof.Gen.KernelIdeal.Value
import proofs.«152088_g32040456028641_cont_8to1_b_1227_18_alg».proof.Proof.Gen.ReferenceIdeal.Run
import proofs.«152088_g32040456028641_cont_8to1_b_1227_18_alg».proof.Proof.Gen.ReferenceIdeal.Read
import proofs.«152088_g32040456028641_cont_8to1_b_1227_18_alg».proof.Proof.GcnSpec
import proofs.«152088_g32040456028641_cont_8to1_b_1227_18_alg».proof.Proof.GcnBlocks
import proofs.«152088_g32040456028641_cont_8to1_b_1227_18_alg».proof.Proof.GcnRef
import proofs.«152088_g32040456028641_cont_8to1_b_1227_18_alg».proof.Proof.GcnFinite
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealized kernel's result array ends at normalize((A · X) · W + b), the reference's at
    normalize(A · (X · W) + b), of arguments that agree; the precondition makes every entry a real number,
    and for real entries the two arrays are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq, (hagree c).1, (hagree c).2.1,
    (hagree c).2.2.1, (hagree c).2.2.2]
  obtain ⟨hX, hA, hW, -⟩ := Cert.Gcn.Finite.real_of_pre _ _ _ _ (hpre c)
  exact (Cert.Gcn.outK_eq_outR _ _ _ _ hX hA hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
